-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x2x2x3 : Shape := ⟨4, ![4000000, 2, 2, 3]⟩
abbrev S_ : Shape := ⟨0, ![]⟩

class Facts : Prop where
  bcast_S_S4000000x2x2x3 : S_.BroadcastsInDim S4000000x2x2x3 (![] : Fin 0 → Fin S4000000x2x2x3.rank)
  reducesTo_S4000000x2x2x3_S_d0_1_2_3 : S4000000x2x2x3.ReducesTo [0, 1, 2, 3] S_
  h_S_ : 0 < S_.numel

variable [Facts]

def fn {F : FTy → Type} [FloatOps F] (main_arg0 : FVec F S4000000x2x2x3 .f32) : IVec S_ 1 :=
  let main_v0 : FVec F S4000000x2x2x3 .f32 := Host.absf main_arg0
  let main_cst : FVec F S_ .f32 := constant S_ .f32 0x7F800000#32
  let main_v1 : FVec F S4000000x2x2x3 .f32 := broadcastInDim S4000000x2x2x3 ![] bcast_S_S4000000x2x2x3 main_cst
  let main_v2 : IVec S4000000x2x2x3 1 := cmpf .olt main_v0 main_v1
  let main_c : IVec S_ 1 := constantI S_ 1 1#1
  let main_v3 : IVec S_ 1 := (fun x v => Host.reduce IntOp.andi x v reducesTo_S4000000x2x2x3_S_d0_1_2_3 h_S_) main_v2 main_c
  main_v3
-- ==== Kernel.lean ====
abbrev S4000000x2x2x3 : Shape := ⟨4, ![4000000, 2, 2, 3]⟩
abbrev S375000x128 : Shape := ⟨2, ![375000, 128]⟩
abbrev S15000x128 : Shape := ⟨2, ![15000, 128]⟩
abbrev S1024x2x2x3 : Shape := ⟨4, ![1024, 2, 2, 3]⟩

abbrev nBuf : Space → Nat
  | .hbm => 5
  | .vmem => 4
  | .smem => 0
  | _ => 0

abbrev bufTy : (tb : Table) → Fin (tcTables nBuf tb) → BufTy
  | .hbm, ⟨0, _⟩ => ⟨S4000000x2x2x3, .f32⟩
  | .hbm, ⟨1, _⟩ => ⟨S375000x128, .f32⟩
  | .hbm, ⟨2, _⟩ => ⟨S375000x128, .f32⟩
  | .hbm, ⟨3, _⟩ => ⟨S4000000x2x2x3, .f32⟩
  | .hbm, ⟨4, _⟩ => ⟨S1024x2x2x3, .f32⟩
  | .local _ .vmem, ⟨0, _⟩ => ⟨S15000x128, .f32⟩
  | .local _ .vmem, ⟨1, _⟩ => ⟨S15000x128, .f32⟩
  | .local _ .vmem, ⟨2, _⟩ => ⟨S15000x128, .f32⟩
  | .local _ .vmem, ⟨3, _⟩ => ⟨S15000x128, .f32⟩
  | _, _ => ⟨S4000000x2x2x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S15000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4000000x2x2x3_S375000x128 : S4000000x2x2x3.ShapeCasts S375000x128
  inb_S15000x128_S15000x128_0_0 : ∀ a, (![0, 0] : Fin 2 → Nat) a + S15000x128.size a ≤ S15000x128.size a
  h_S15000x128 : 0 < S15000x128.numel
  shapeCasts_S15000x128_S15000x128 : S15000x128.ShapeCasts S15000x128
  shapeCasts_S375000x128_S4000000x2x2x3 : S375000x128.ShapeCasts S4000000x2x2x3
  slices_S4000000x2x2x3_S1024x2x2x3_0_0_0_0 : S4000000x2x2x3.Slices ![0, 0, 0, 0] S1024x2x2x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15000x128.size a ≤ S375000x128.size a
  hwx0_0 : ∀ i : grid0.Coords, EltTy.bits .f32 = 32 ∨ (Rect.block (s := S375000x128) S15000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S15000x128.size a ≤ S375000x128.size a
  hwx0_1 : ∀ i : grid0.Coords, EltTy.bits .f32 = 32 ∨ (Rect.block (s := S375000x128) S15000x128.size (cc0_transform_1 i) (hinb0_1 i)).WholeWords (EltTy.packing .f32)

variable [Facts₀]

abbrev win0_0 : Pipeline.Window sig grid0 :=
  Pipeline.Window.ofSpec (Memref.whole main_v0) S15000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S15000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x2x2x3 : Shape := ⟨4, ![4000000, 2, 2, 3]⟩
abbrev S1024x2x2x3 : Shape := ⟨4, ![1024, 2, 2, 3]⟩

abbrev nBuf : Space → Nat
  | .hbm => 2
  | .vmem => 0
  | .smem => 0
  | _ => 0

abbrev bufTy : (tb : Table) → Fin (tcTables nBuf tb) → BufTy
  | .hbm, ⟨0, _⟩ => ⟨S4000000x2x2x3, .f32⟩
  | .hbm, ⟨1, _⟩ => ⟨S1024x2x2x3, .f32⟩
  | _, _ => ⟨S4000000x2x2x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  slices_S4000000x2x2x3_S1024x2x2x3_0_0_0_0 : S4000000x2x2x3.Slices ![0, 0, 0, 0] S1024x2x2x3

variable [Facts₀]

class Facts : Prop extends Facts₀ where

variable [Facts]
-- ==== Proof.CopyValue.lean ====
/-
  The kernel side of the value claim: the region copies its input array block by block, so the
  output array after the run IS the input array as the region finds it, and the two host
  reshapes around the region cancel.

  The flat view [375000, 128] of the argument is cut into 25 blocks of 15000 rows. Point `t` of
  the grid loads rows 15000·t … 15000·t + 14999 and stores them unchanged (the body's only
  arithmetic is a shape cast of a vector to its own shape). Both windows use the same index map
  t ↦ (t, 0), so what point `t` writes back is block `t` of the input array, and every row r lies in
  block r / 15000: the blocks cover the array, which therefore ends equal to the input view.
  Reshaping [4000000,2,2,3] → [375000,128] → [4000000,2,2,3] is the identity on row-major order,
  so the first result is the argument itself; the second result is a slice of the untouched argument.
-/
import proofs.«114603_j87522843560120_2_alg».proof.Proof.Gen.KernelIdeal.Frame
import Idealize.ShloMosaic.Lib.Pipeline.Value
import Idealize.ShloMosaic.Lib.StableHlo.Run

set_option maxRecDepth 16384

noncomputable section

namespace Cert.KernelIdeal.CopyValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The body's one load and one store start at the block's origin. -/
theorem origin : (![0, 0] : Fin 2 → Nat) = fun _ => 0 := funext fun a => by fin_cases a <;> rfl

/-- The stored value is the loaded block: a shape cast of a vector to its own shape changes nothing. -/
theorem stored_eq_loaded (x0 : Vec F S15000x128 .f32) : k0_pay1 x0 = x0 := by
  unfold k0_pay1
  exact shapeCast_self _ _

/-- Input and output windows sit on the same block at every point: block `t` of rows, the one block of lanes. -/
theorem same_block : ∀ t : Fin cfg0.N, win0_0.index t (0 : Fin 2) = win0_1.index t (0 : Fin 2)
    ∧ win0_0.index t (1 : Fin 2) = win0_1.index t (1 : Fin 2)
    ∧ win0_1.index t (1 : Fin 2) = 0 :=
  (by decide +kernel : ∀ t : Fin grid0.N, _)

/-- Every one of the 25 row blocks is some point's output block. -/
theorem block_onto : ∀ q : Fin 25, ∃ t : Fin cfg0.N, win0_1.index t = ![q.val, 0] :=
  (by decide +kernel : ∀ q : Fin 25, ∃ t : Fin grid0.N, win0_1.index t = ![q.val, 0])

/-- What point `t` writes back is block `t` of the input array as the region finds it. -/
theorem flushed_eq (c : Dev nD) (t : Fin cfg0.N) :
    (dats m 0 c).flushed 1 t = ((cfg0.win 1).blk t).view.read (Elt F) (V m c main_v0 : S375000x128.Idx → Elt F .f32) := by
  show (cfg0.win 1).cut (grid0.coords t) ((dats m 0 c).after 1 t) = _
  rw [after0_1]
  unfold out0_1
  rw [View.canon_unit_zero origin]
  simp only [View.ld_unit_zero (S := S15000x128) origin]
  rw [stored_eq_loaded]
  obtain ⟨e0, e1, e2⟩ := same_block t
  funext j
  show V m c main_v0 (((cfg0.win 0).blk t).view.emb j) = V m c main_v0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 15000 + 1 * (j 0).val = win0_1.index t (0 : Fin 2) * 15000 + 1 * (j 0).val; omega
    | ⟨1, _⟩ => show win0_0.index t (1 : Fin 2) * 128 + 1 * (j 1).val = win0_1.index t (1 : Fin 2) * 128 + 1 * (j 1).val; omega
  rw [h0]

/-- An index of the array is in point `t`'s output block iff each coordinate is in the block's range. -/
theorem mem_block (t : Fin cfg0.N) (i : S375000x128.Idx) :
    i ∈ ((cfg0.win 1).blk t).view.set ↔ ∀ a : Fin 2, win0_1.index t a * S15000x128.size a ≤ (i a).val ∧ (i a).val < win0_1.index t a * S15000x128.size a + S15000x128.size a := by
  show i ∈ ((View.whole main_v1).slice (win0_1.rect t)).set ↔ _
  rw [View.set_slice_whole, Rect.mem_set_unit]
  exact Iff.rfl

/-- Row r of the array lies in the output block of the point whose block index is r / 15000. -/
theorem blocks_cover (i : S375000x128.Idx) :
    ∃ t : Fin cfg0.N, (cfg0.win 1).flush t = true ∧ i ∈ ((cfg0.win 1).blk t).view.set := by
  have hi0 : (i 0).val < 375000 := (i 0).isLt
  have hi1 : (i 1).val < 128 := (i 1).isLt
  obtain ⟨t, ht⟩ := block_onto ⟨(i 0).val / 15000, by omega⟩
  have q0 : win0_1.index t (0 : Fin 2) = (i 0).val / 15000 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 15000 ≤ (i 0).val ∧ (i 0).val < win0_1.index t (0 : Fin 2) * 15000 + 15000; omega
  | ⟨1, _⟩ => show win0_1.index t (1 : Fin 2) * 128 ≤ (i 1).val ∧ (i 1).val < win0_1.index t (1 : Fin 2) * 128 + 128; omega

/-- The output array after the run is the input array as the region finds it. -/
theorem copied (c : Dev nD) : (dats m 0 c).arrAt 1 cfg0.N = (V m c main_v0 : S375000x128.Idx → Elt F .f32) :=
  (dats m 0 c).arrAt_eq_of_cover 1 _ (fun t _ => flushed_eq m c t) (blocks_cover)

/-- The region finds the flat view of the argument: the host reshape before it. -/
theorem flat_view (c : Dev nD) : (V m c main_v0 : S375000x128.Idx → Elt F .f32)
    = shapeCast S375000x128 (m ((c : Thread nD τ).loc main_arg0)) shapeCasts_S4000000x2x2x3_S375000x128 := by
  show StableHlo.after hostOps0 (fun b => m (c, b)) (Proc.devRef .tc main_v0) = _
  after_results
  rfl

end Cert.KernelIdeal.CopyValue

end
-- ==== Proof.KernelRun.lean ====
/-
  The kernel's two results after the run, as functions of the argument.

  After the region the host reshapes the copied flat array back to [4000000,2,2,3] and slices the
  first 1024 items off the untouched argument. The copied array is the flat view of the argument,
  and a reshape there and back is the identity, so the first result is the argument; the second is
  the slice of the argument.
-/
import proofs.«114603_j87522843560120_2_alg».proof.Proof.CopyValue

set_option maxRecDepth 16384

noncomputable section

namespace Cert.KernelIdeal.CopyValue

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The array the tail's reshape reads is the copied one: the flat view of the argument. -/
theorem tail_operand (c : Dev nD) :
    Pipeline.withArrays (cfgs 0).spec c (V0 m c) (fun w => (dats m 0 c).arrAt w (cfgs 0).N) (Proc.devRef .tc main_v1)
      = shapeCast S375000x128 (m ((c : Thread nD τ).loc main_arg0)) shapeCasts_S4000000x2x2x3_S375000x128 :=
  ((Pipeline.withArrays_arr spec0 launch0.win.arr_inj c _ _ 1).trans (copied m c)).trans (flat_view m c)

/-- The first result: the flat copy reshaped back is the argument. -/
theorem first_result (c : Dev nD) :
    Pipeline.afterTail₀ cfgs (dats m) 0 (V0 m) [hostOps1] c main_v2 = m ((c : Thread nD τ).loc main_arg0) := by
  unfold Pipeline.afterTail₀
  show StableHlo.after hostOps1 _ (Proc.devRef .tc main_v2) = _
  after_results
  rw [tail_operand m c]
  exact shapeCast_shapeCast (m ((c : Thread nD τ).loc main_arg0)) shapeCasts_S4000000x2x2x3_S375000x128 shapeCasts_S375000x128_S4000000x2x2x3

/-- The second result: the first 1024 items of the argument, which the region leaves untouched. -/
theorem second_result (c : Dev nD) :
    Pipeline.afterTail₀ cfgs (dats m) 0 (V0 m) [hostOps1] c main_v3
      = extractStridedSlice S1024x2x2x3 ![0, 0, 0, 0] (m ((c : Thread nD τ).loc main_arg0)) slices_S4000000x2x2x3_S1024x2x2x3_0_0_0_0 := by
  unfold Pipeline.afterTail₀
  show StableHlo.after hostOps1 _ (Proc.devRef .tc main_v3) = _
  after_results
  rw [Pipeline.withArrays_of_ne _ c (V0 m c) _ main_arg0 (by exact (by decide : ∀ w, Pipeline.arrRef spec0 w ≠ main_arg0))]
  rw [show V0 m c (Proc.devRef .tc main_arg0) = m ((c : Thread nD τ).loc main_arg0) from V_main_arg0 m c]

/-- The kernel's run, read: every weakly fair execution terminates with the first result at the argument,
    the second at the argument's first 1024 items, and the argument unchanged. -/
theorem run : θ_run defs (onTc (τ := τ) (main (F := F))) ⟨m, fun _ => 0, ρ⟩ fun r => ∀ c : Dev nD,
      r.2.mem ((c : Thread nD τ).loc main_v2) = m ((c : Thread nD τ).loc main_arg0)
      ∧ r.2.mem ((c : Thread nD τ).loc main_v3)
          = extractStridedSlice S1024x2x2x3 ![0, 0, 0, 0] (m ((c : Thread nD τ).loc main_arg0)) slices_S4000000x2x2x3_S1024x2x2x3_0_0_0_0
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (first_result m c),
       ((h c).2 main_v3 (Pipeline.mem_restRefs_of main_v3 (by decide) (by decide))).trans (second_result m c),
       ((h c).2 main_arg0 (Pipeline.mem_restRefs_of main_arg0 (by decide) (by decide))).trans (W_main_arg0 m (dats m) c)⟩)
    (run_main m ρ)

end Cert.KernelIdeal.CopyValue

end
-- ==== Proof.lean ====
/-
  The kernel copies its argument through a lane-dense flat view and also returns the argument's first
  1024 items; the reference returns the argument and the same prefix.

  Kernel: items[4000000,2,2,3] is reshaped to [375000,128], copied block by block (25 blocks of 15000
  rows, each loaded and stored unchanged), and reshaped back; the prefix is a slice of the argument.
  Reference: result = items, prefix = items[:1024].

  Both first results are the argument itself — the blocks cover the flat array, so the copy is the
  whole flat view, and a reshape there and back is the identity on row-major order — and both second
  results are the same slice of the same argument. No arithmetic is done on any element, so the
  equality holds for every extended-real input and the finiteness of the inputs is never used.
  The idealization rewrote nothing, so the kernel's idealized text is its own text read over the
  extended reals and there is nothing to preserve.
-/
import proofs.«114603_j87522843560120_2_alg».proof.Defs
import proofs.«114603_j87522843560120_2_alg».proof.Proof.Gen.Kernel
import proofs.«114603_j87522843560120_2_alg».proof.Proof.Gen.Kernel.Frame
import proofs.«114603_j87522843560120_2_alg».proof.Proof.Gen.KernelIdeal
import proofs.«114603_j87522843560120_2_alg».proof.Proof.Gen.KernelIdeal.Frame
import proofs.«114603_j87522843560120_2_alg».proof.Proof.Gen.ReferenceIdeal
import proofs.«114603_j87522843560120_2_alg».proof.Proof.Gen.ReferenceIdeal.Run
import proofs.«114603_j87522843560120_2_alg».proof.Proof.Gen.Pre_finite_inputs
import proofs.«114603_j87522843560120_2_alg».proof.Proof.KernelRun
import Idealize.ShloMosaic.Adequacy
import Idealize.ShloMosaic.Init

noncomputable section

namespace Cert.Proof

open Idealize.ShloMosaic Idealize.SL.Sem

/-- The word-level kernel runs and leaves its argument as it found it. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is one host slice: its run, with the result dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the argument as first result and its first 1024 items as second. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => extractStridedSlice Cert.KernelIdeal.S1024x2x2x3 ![0, 0, 0, 0]
      (m ((c.tc : Thread Cert.KernelIdeal.nD Cert.KernelIdeal.τ).loc Cert.KernelIdeal.main_arg0))
      Cert.KernelIdeal.Facts₀.slices_S4000000x2x2x3_S1024x2x2x3_0_0_0_0,
    Cert.KernelIdeal.CopyValue.run (F := Ideal) m ρ, ?_⟩
  refine (θ_run Cert.ReferenceIdeal.defs _ _).mono (fun _ h c => ⟨(h c).1.trans (hagree c), (h c).2.1.trans ?_, (h c).2.2⟩)
    (Cert.ReferenceIdeal.Value.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
